-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x12x64x64x64 : Shape := ⟨5, ![16, 12, 64, 64, 64]⟩
abbrev S_ : Shape := ⟨0, ![]⟩

class Facts : Prop where
  bcast_S_S16x12x64x64x64 : S_.BroadcastsInDim S16x12x64x64x64 (![] : Fin 0 → Fin S16x12x64x64x64.rank)
  reducesTo_S16x12x64x64x64_S_d0_1_2_3_4 : S16x12x64x64x64.ReducesTo [0, 1, 2, 3, 4] S_
  h_S_ : 0 < S_.numel

variable [Facts]

def fn {F : FTy → Type} [FloatOps F] (main_arg0 : FVec F S16x12x64x64x64 .f32) (main_arg1 : FVec F S16x12x64x64x64 .f32) : IVec S_ 1 :=
  let main_v0 : FVec F S16x12x64x64x64 .f32 := Host.absf main_arg0
  let main_cst : FVec F S_ .f32 := constant S_ .f32 0x7F800000#32
  let main_v1 : FVec F S16x12x64x64x64 .f32 := broadcastInDim S16x12x64x64x64 ![] bcast_S_S16x12x64x64x64 main_cst
  let main_v2 : IVec S16x12x64x64x64 1 := cmpf .olt main_v0 main_v1
  let main_c : IVec S_ 1 := constantI S_ 1 1#1
  let main_v3 : IVec S_ 1 := (fun x v => Host.reduce IntOp.andi x v reducesTo_S16x12x64x64x64_S_d0_1_2_3_4 h_S_) main_v2 main_c
  let main_v4 : FVec F S16x12x64x64x64 .f32 := Host.absf main_arg1
  let main_cst_0 : FVec F S_ .f32 := constant S_ .f32 0x7F800000#32
  let main_v5 : FVec F S16x12x64x64x64 .f32 := broadcastInDim S16x12x64x64x64 ![] bcast_S_S16x12x64x64x64 main_cst_0
  let main_v6 : IVec S16x12x64x64x64 1 := cmpf .olt main_v4 main_v5
  let main_c_1 : IVec S_ 1 := constantI S_ 1 1#1
  let main_v7 : IVec S_ 1 := (fun x v => Host.reduce IntOp.andi x v reducesTo_S16x12x64x64x64_S_d0_1_2_3_4 h_S_) main_v6 main_c_1
  let main_v8 : IVec S_ 1 := andi main_v3 main_v7
  main_v8
-- ==== Kernel.lean ====
abbrev S16x12x64x64x64 : Shape := ⟨5, ![16, 12, 64, 64, 64]⟩
abbrev S192x262144 : Shape := ⟨2, ![192, 262144]⟩
abbrev S192x1 : Shape := ⟨2, ![192, 1]⟩
abbrev S96x16384 : Shape := ⟨2, ![96, 16384]⟩
abbrev S96x1 : Shape := ⟨2, ![96, 1]⟩
abbrev S96x128 : Shape := ⟨2, ![96, 128]⟩
abbrev S96x128x128 : Shape := ⟨3, ![96, 128, 128]⟩
abbrev S96 : Shape := ⟨1, ![96]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S16x12x64x64x64, .f32⟩
  | .hbm, ⟨1, _⟩ => ⟨S16x12x64x64x64, .f32⟩
  | .hbm, ⟨2, _⟩ => ⟨S192x262144, .f32⟩
  | .hbm, ⟨3, _⟩ => ⟨S192x262144, .f32⟩
  | .hbm, ⟨4, _⟩ => ⟨S192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S96x16384, .f32⟩
  | .local _ .vmem, ⟨1, _⟩ => ⟨S96x16384, .f32⟩
  | .local _ .vmem, ⟨2, _⟩ => ⟨S96x16384, .f32⟩
  | .local _ .vmem, ⟨3, _⟩ => ⟨S96x16384, .f32⟩
  | .local _ .vmem, ⟨4, _⟩ => ⟨S96x1, .f32⟩
  | .local _ .vmem, ⟨5, _⟩ => ⟨S96x1, .f32⟩
  | .local _ .vmem, ⟨6, _⟩ => ⟨S96x128, .f32⟩
  | .local _ .vmem, ⟨7, _⟩ => ⟨S96x128, .f32⟩
  | _, _ => ⟨S16x12x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S96x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S96x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S96x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x12x64x64x64_S192x262144 : S16x12x64x64x64.ShapeCasts S192x262144
  inb_S96x128_S96x128_0_0 : ∀ a, (![0, 0] : Fin 2 → Nat) a + S96x128.size a ≤ S96x128.size a
  h_S96x128 : 0 < S96x128.numel
  shapeCasts_S96x128_S96x128 : S96x128.ShapeCasts S96x128
  inb_S96x16384_S96x16384_0_0 : ∀ a, (![0, 0] : Fin 2 → Nat) a + S96x16384.size a ≤ S96x16384.size a
  h_S96x16384 : 0 < S96x16384.numel
  shapeCasts_S96x16384_S96x16384 : S96x16384.ShapeCasts S96x16384
  shapeCasts_S96x16384_S96x128x128 : S96x16384.ShapeCasts S96x128x128
  reduces_S96x128x128_S96x128 : S96x128x128.Reduces [1] S96x128
  reduces_S96x128_S96 : S96x128.Reduces [1] S96
  shapeCasts_S96_S96x1 : S96.ShapeCasts S96x1
  inb_S96x1_S96x1_0_0 : ∀ a, (![0, 0] : Fin 2 → Nat) a + S96x1.size a ≤ S96x1.size a
  h_S96x1 : 0 < S96x1.numel
  reducesTo_S192x1_S_d0_1 : S192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S96x16384.size a ≤ S192x262144.size a
  hwx0_0 : ∀ i : grid0.Coords, EltTy.bits .f32 = 32 ∨ (Rect.block (s := S192x262144) S96x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S96x16384.size a ≤ S192x262144.size a
  hwx0_1 : ∀ i : grid0.Coords, EltTy.bits .f32 = 32 ∨ (Rect.block (s := S192x262144) S96x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S96x1.size a ≤ S192x1.size a
  hwx0_2 : ∀ i : grid0.Coords, EltTy.bits .f32 = 32 ∨ (Rect.block (s := S192x1) S96x1.size (cc0_transform_2 i) (hinb0_2 i)).WholeWords (EltTy.packing .f32)

variable [Facts₀]

abbrev win0_0 : Pipeline.Window sig grid0 :=
  Pipeline.Window.ofSpec (Memref.whole main_v0) S96x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S96x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S96x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x12x64x64x64 : Shape := ⟨5, ![16, 12, 64, 64, 64]⟩
abbrev S_ : Shape := ⟨0, ![]⟩
abbrev S16x12 : Shape := ⟨2, ![16, 12]⟩

abbrev nBuf : Space → Nat
  | .hbm => 17
  | .vmem => 0
  | .smem => 0
  | _ => 0

abbrev bufTy : (tb : Table) → Fin (tcTables nBuf tb) → BufTy
  | .hbm, ⟨0, _⟩ => ⟨S16x12x64x64x64, .f32⟩
  | .hbm, ⟨1, _⟩ => ⟨S16x12x64x64x64, .f32⟩
  | .hbm, ⟨2, _⟩ => ⟨S_, .f32⟩
  | .hbm, ⟨3, _⟩ => ⟨S16x12, .f32⟩
  | .hbm, ⟨4, _⟩ => ⟨S_, .f32⟩
  | .hbm, ⟨5, _⟩ => ⟨S16x12, .f32⟩
  | .hbm, ⟨6, _⟩ => ⟨S16x12, .f32⟩
  | .hbm, ⟨7, _⟩ => ⟨S_, .f32⟩
  | .hbm, ⟨8, _⟩ => ⟨S16x12, .f32⟩
  | .hbm, ⟨9, _⟩ => ⟨S_, .f32⟩
  | .hbm, ⟨10, _⟩ => ⟨S16x12, .f32⟩
  | .hbm, ⟨11, _⟩ => ⟨S16x12, .f32⟩
  | .hbm, ⟨12, _⟩ => ⟨S16x12, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | _, _ => ⟨S16x12x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  reducesTo_S16x12x64x64x64_S16x12_d2_3_4 : S16x12x64x64x64.ReducesTo [2, 3, 4] S16x12
  h_S_ : 0 < S_.numel
  bcast_S_S16x12 : S_.BroadcastsInDim S16x12 (![] : Fin 0 → Fin S16x12.rank)
  reducesTo_S16x12_S_d0_1 : S16x12.ReducesTo [0, 1] S_

variable [Facts₀]

class Facts : Prop extends Facts₀ where

variable [Facts]
-- ==== Proof.Pieces.lean ====
/-
  What each of the body's three control cases leaves in the two accumulators and in the output column, as the body's
  pure arithmetic applied to what the case found. A row block's first step (case A) zeroes both accumulators and adds the
  first column block; a middle step (case B) adds the next column block to what the step before left; the last step
  (case C) does the same and then writes the output column computed from the two accumulators it has just updated.
  Every load and store goes through a whole buffer, so a buffer's contents after a case are its last store's value.
-/
import proofs.«176838_j77214922048106_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Case A, first accumulator: the zero block plus the first column block's lane sums. -/
theorem sout_A_0 (c : Dev nD) (i : grid0.Coords) (arg2 : Memref sig .tc .vmem S96x16384 .f32) (harg2 : arg2.IsWhole) (arg3 : Memref sig .tc .vmem S96x16384 .f32) (harg3 : arg3.IsWhole) (arg4 : Memref sig .tc .vmem S96x1 .f32) (harg4 : arg4.IsWhole) (arg5 : Memref sig .tc .vmem S96x128 .f32) (harg5 : arg5.IsWhole) (arg6 : Memref sig .tc .vmem S96x128 .f32) (harg6 : arg6.IsWhole) (hc0 : cond0_0 i) (hc1 : ¬cond0_1 i)
    (x0 : Vec F S96x16384 .f32) (x1 : Vec F S96x16384 .f32) :
    sout0_A_0 c i arg2 harg2 arg3 harg3 arg4 harg4 arg5 harg5 arg6 harg6 hc0 hc1 x0 x1 = k0_pay3 x0 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S96x128) hz, View.readCov_unit_zero (S := S96x128) _ hz]
  simp only [View.readAt_eq_ld, harg2.read_unread, View.ld_unit_zero (S := S96x16384) hz]

/-- Case A, second accumulator. -/
theorem sout_A_1 (c : Dev nD) (i : grid0.Coords) (arg2 : Memref sig .tc .vmem S96x16384 .f32) (harg2 : arg2.IsWhole) (arg3 : Memref sig .tc .vmem S96x16384 .f32) (harg3 : arg3.IsWhole) (arg4 : Memref sig .tc .vmem S96x1 .f32) (harg4 : arg4.IsWhole) (arg5 : Memref sig .tc .vmem S96x128 .f32) (harg5 : arg5.IsWhole) (arg6 : Memref sig .tc .vmem S96x128 .f32) (harg6 : arg6.IsWhole) (hc0 : cond0_0 i) (hc1 : ¬cond0_1 i)
    (x0 : Vec F S96x16384 .f32) (x1 : Vec F S96x16384 .f32) :
    sout0_A_1 c i arg2 harg2 arg3 harg3 arg4 harg4 arg5 harg5 arg6 harg6 hc0 hc1 x0 x1 = k0_pay4 x1 (k0_pay2 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S96x128) hz, View.readCov_unit_zero (S := S96x128) _ hz]
  simp only [View.readAt_eq_ld, harg3.read_unread, View.ld_unit_zero (S := S96x16384) hz]

/-- Case B, first accumulator: what the step before left plus this column block's lane sums. -/
theorem sout_B_0 (c : Dev nD) (i : grid0.Coords) (arg2 : Memref sig .tc .vmem S96x16384 .f32) (harg2 : arg2.IsWhole) (arg3 : Memref sig .tc .vmem S96x16384 .f32) (harg3 : arg3.IsWhole) (arg4 : Memref sig .tc .vmem S96x1 .f32) (harg4 : arg4.IsWhole) (arg5 : Memref sig .tc .vmem S96x128 .f32) (harg5 : arg5.IsWhole) (arg6 : Memref sig .tc .vmem S96x128 .f32) (harg6 : arg6.IsWhole) (hc0 : ¬cond0_0 i) (hc1 : ¬cond0_1 i)
    (x0 : Vec F S96x16384 .f32) (x1 : Vec F S96x16384 .f32) (xs0 xs1 : Vec F S96x128 .f32) :
    sout0_B_0 c i arg2 harg2 arg3 harg3 arg4 harg4 arg5 harg5 arg6 harg6 hc0 hc1 x0 x1 xs0 xs1 = k0_pay3 x0 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero (S := S96x128) hz]
  simp only [View.readAt_eq_ld, harg2.read_unread, harg5.read_unread, View.ld_unit_zero (S := S96x16384) hz,
    View.ld_unit_zero (S := S96x128) hz]

/-- Case B, second accumulator. -/
theorem sout_B_1 (c : Dev nD) (i : grid0.Coords) (arg2 : Memref sig .tc .vmem S96x16384 .f32) (harg2 : arg2.IsWhole) (arg3 : Memref sig .tc .vmem S96x16384 .f32) (harg3 : arg3.IsWhole) (arg4 : Memref sig .tc .vmem S96x1 .f32) (harg4 : arg4.IsWhole) (arg5 : Memref sig .tc .vmem S96x128 .f32) (harg5 : arg5.IsWhole) (arg6 : Memref sig .tc .vmem S96x128 .f32) (harg6 : arg6.IsWhole) (hc0 : ¬cond0_0 i) (hc1 : ¬cond0_1 i)
    (x0 : Vec F S96x16384 .f32) (x1 : Vec F S96x16384 .f32) (xs0 xs1 : Vec F S96x128 .f32) :
    sout0_B_1 c i arg2 harg2 arg3 harg3 arg4 harg4 arg5 harg5 arg6 harg6 hc0 hc1 x0 x1 xs0 xs1 = k0_pay4 x1 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero (S := S96x128) hz]
  simp only [View.readAt_eq_ld, harg3.read_unread, harg6.read_unread, View.ld_unit_zero (S := S96x16384) hz,
    View.ld_unit_zero (S := S96x128) hz]

/-- Case C, first accumulator: as in case B. -/
theorem sout_C_0 (c : Dev nD) (i : grid0.Coords) (arg2 : Memref sig .tc .vmem S96x16384 .f32) (harg2 : arg2.IsWhole) (arg3 : Memref sig .tc .vmem S96x16384 .f32) (harg3 : arg3.IsWhole) (arg4 : Memref sig .tc .vmem S96x1 .f32) (harg4 : arg4.IsWhole) (arg5 : Memref sig .tc .vmem S96x128 .f32) (harg5 : arg5.IsWhole) (arg6 : Memref sig .tc .vmem S96x128 .f32) (harg6 : arg6.IsWhole) (hc0 : ¬cond0_0 i) (hc1 : cond0_1 i)
    (x0 : Vec F S96x16384 .f32) (x1 : Vec F S96x16384 .f32) (xs0 xs1 : Vec F S96x128 .f32) :
    sout0_C_0 c i arg2 harg2 arg3 harg3 arg4 harg4 arg5 harg5 arg6 harg6 hc0 hc1 x0 x1 xs0 xs1 = k0_pay3 x0 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero (S := S96x128) hz]
  simp only [View.readAt_eq_ld, harg2.read_unread, harg5.read_unread, View.ld_unit_zero (S := S96x16384) hz,
    View.ld_unit_zero (S := S96x128) hz]

/-- Case C, second accumulator. -/
theorem sout_C_1 (c : Dev nD) (i : grid0.Coords) (arg2 : Memref sig .tc .vmem S96x16384 .f32) (harg2 : arg2.IsWhole) (arg3 : Memref sig .tc .vmem S96x16384 .f32) (harg3 : arg3.IsWhole) (arg4 : Memref sig .tc .vmem S96x1 .f32) (harg4 : arg4.IsWhole) (arg5 : Memref sig .tc .vmem S96x128 .f32) (harg5 : arg5.IsWhole) (arg6 : Memref sig .tc .vmem S96x128 .f32) (harg6 : arg6.IsWhole) (hc0 : ¬cond0_0 i) (hc1 : cond0_1 i)
    (x0 : Vec F S96x16384 .f32) (x1 : Vec F S96x16384 .f32) (xs0 xs1 : Vec F S96x128 .f32) :
    sout0_C_1 c i arg2 harg2 arg3 harg3 arg4 harg4 arg5 harg5 arg6 harg6 hc0 hc1 x0 x1 xs0 xs1 = k0_pay4 x1 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero (S := S96x128) hz]
  simp only [View.readAt_eq_ld, harg3.read_unread, harg6.read_unread, View.ld_unit_zero (S := S96x16384) hz,
    View.ld_unit_zero (S := S96x128) hz]

/-- Case C, the output column: computed from the two accumulators as this step leaves them. -/
theorem out_C_2 (c : Dev nD) (i : grid0.Coords) (arg2 : Memref sig .tc .vmem S96x16384 .f32) (harg2 : arg2.IsWhole) (arg3 : Memref sig .tc .vmem S96x16384 .f32) (harg3 : arg3.IsWhole) (arg4 : Memref sig .tc .vmem S96x1 .f32) (harg4 : arg4.IsWhole) (arg5 : Memref sig .tc .vmem S96x128 .f32) (harg5 : arg5.IsWhole) (arg6 : Memref sig .tc .vmem S96x128 .f32) (harg6 : arg6.IsWhole) (hc0 : ¬cond0_0 i) (hc1 : cond0_1 i)
    (x0 : Vec F S96x16384 .f32) (x1 : Vec F S96x16384 .f32) (xs0 xs1 : Vec F S96x128 .f32) :
    out0_C_2 c i arg2 harg2 arg3 harg3 arg4 harg4 arg5 harg5 arg6 harg6 hc0 hc1 x0 x1 xs0 xs1 = k0_pay5 (k0_pay3 x0 xs0) (k0_pay4 x1 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero (S := S96x1) hz, View.readCov_unit_zero (S := S96x128) _ hz,
    View.readCov_unit_zero (S := S96x128) _ hz]
  simp only [View.readAt_eq_ld, harg2.read_unread, harg3.read_unread, harg5.read_unread, harg6.read_unread,
    View.ld_unit_zero (S := S96x16384) hz, View.ld_unit_zero (S := S96x128) hz]

end Cert.KernelIdeal.Pieces

end
-- ==== Proof.Steps.lean ====
/-
  The two accumulators and the output column from one grid point to the next. At the first point of a row block
  (point number ≡ 0 mod 16) each accumulator is the body's step applied to the zero block; at every other point it is the
  step applied to what the point before left; at the last point of a row block (≡ 15 mod 16) the output column is the
  body's final arithmetic applied to the two accumulators as that point leaves them.
-/
import proofs.«176838_j77214922048106_2_alg».proof.Proof.Pieces

noncomputable section

open Idealize.ShloMosaic Idealize.ShloMosaic.TcCoe Idealize.SL.Sem

namespace Cert.KernelIdeal.Steps

open Cert.KernelIdeal Cert.KernelIdeal.Gen Cert.KernelIdeal.Pieces

variable {F : FTy → Type} [FloatOps F]
variable (m : (ℓ : Loc nD τ sig) → Buf (Elt F) ℓ) (c : Dev nD)

/-- First accumulator at the first point of a row block. -/
theorem acc0_first (t : Fin cfg0.N) (h0 : t.val % 16 = 0) :
    (outsAt0 m c t.val t.isLt).2.1 = k0_pay3 (iblk m c 0 t) (k0_pay1 (F := F)) := by
  have h1 : ¬t.val % 16 = 15 := by omega
  rw [outsAt0_A m c t h0 h1]
  exact sout_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

/-- Second accumulator at the first point of a row block. -/
theorem acc1_first (t : Fin cfg0.N) (h0 : t.val % 16 = 0) :
    (outsAt0 m c t.val t.isLt).2.2 = k0_pay4 (iblk m c 1 t) (k0_pay2 (F := F)) := by
  have h1 : ¬t.val % 16 = 15 := by omega
  rw [outsAt0_A m c t h0 h1]
  exact sout_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)

/-- First accumulator at any later point of a row block. -/
theorem acc0_next (t : Fin cfg0.N) (h0 : ¬t.val % 16 = 0) :
    (outsAt0 m c t.val t.isLt).2.1 = k0_pay3 (iblk m c 0 t) (outsAt0 m c (t.val - 1) (Nat.lt_of_le_of_lt (Nat.sub_le _ _) t.isLt)).2.1 := by
  by_cases h1 : t.val % 16 = 15
  · rw [outsAt0_C m c t h0 h1]
    exact sout_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    exact sout_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

/-- Second accumulator at any later point of a row block. -/
theorem acc1_next (t : Fin cfg0.N) (h0 : ¬t.val % 16 = 0) :
    (outsAt0 m c t.val t.isLt).2.2 = k0_pay4 (iblk m c 1 t) (outsAt0 m c (t.val - 1) (Nat.lt_of_le_of_lt (Nat.sub_le _ _) t.isLt)).2.2 := by
  by_cases h1 : t.val % 16 = 15
  · rw [outsAt0_C m c t h0 h1]
    exact sout_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    exact sout_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

/-- The output column at the last point of a row block, from the two accumulators as that point leaves them. -/
theorem out_last (t : Fin cfg0.N) (h1 : t.val % 16 = 15) :
    (outsAt0 m c t.val t.isLt).1 = k0_pay5 (outsAt0 m c t.val t.isLt).2.1 (outsAt0 m c t.val t.isLt).2.2 := by
  have h0 : ¬t.val % 16 = 0 := by omega
  rw [acc0_next m c t h0, acc1_next m c t h0, outsAt0_C m c t h0 h1]
  exact out_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Steps

end
-- ==== Proof.Payload.lean ====
/-
  The kernel body's arithmetic, read entry by entry over the extended reals.
  One grid step adds to each of the 96 × 128 running lane totals the 128 entries of its row that fall on that lane in the
  current 16384-column block: entry `(p, l)` gains `∑ g, x (p, 128 g + l)`. The last step of a row block multiplies the two
  rows' totals over the 128 lanes and scales the product by the literal `2⁻³⁶`.
-/
import proofs.«176838_j77214922048106_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- Column `128 g + l` of a 16384-column block. -/
abbrev col (g l : Fin 128) : Fin 16384 := ⟨128 * g.val + l.val, by have := g.isLt; have := l.isLt; omega⟩

/-- The sum over the middle axis of a 96 × 128 × 128 vector, at `(p, l)`, is the sum over `g` of its entries `(p, g, l)`. -/
theorem sum_groups (v : FVec Ideal S96x128x128 .f32) (h : S96x128x128.Reduces [1] S96x128) (hφ : FKind.Formats .f32)
    (hacc : (0x00000000#32 : BitVec 32) = FKind.add.neutral .f32 hφ) (p : Fin 96) (l : Fin 128) :
    multiReduction .add [1] S96x128 v 0x00000000#32 h hφ hacc (ix2 p l) = ∑ g : Fin 128, v (ix3 p g l) := by
  refine (Ideal.multiReduction_add_single v 0x00000000#32 h hφ hacc (ix2 p l)).trans ?_
  refine Finset.sum_congr rfl fun g _ => congrArg v ?_
  funext a
  match a with
  | ⟨0, _⟩ => rfl
  | ⟨1, _⟩ => rfl
  | ⟨2, _⟩ => rfl

/-- The sum over the lanes of a 96 × 128 vector, at row `p`. -/
theorem sum_lanes_row (v : FVec Ideal S96x128 .f32) (h : S96x128.Reduces [1] S96) (hφ : FKind.Formats .f32)
    (hacc : (0x00000000#32 : BitVec 32) = FKind.add.neutral .f32 hφ) (p : Fin 96) :
    multiReduction .add [1] S96 v 0x00000000#32 h hφ hacc (ix1 p) = ∑ l : Fin 128, v (ix2 p l) := by
  refine (Ideal.multiReduction_add_single v 0x00000000#32 h hφ hacc (ix1 p)).trans ?_
  refine Finset.sum_congr rfl fun l _ => congrArg v ?_
  funext a
  match a with
  | ⟨0, _⟩ => rfl
  | ⟨1, _⟩ => rfl

/-- A 96 × 16384 block regrouped as 96 × 128 × 128: entry `(p, g, l)` is the block's entry `(p, 128 g + l)`. -/
theorem regroup_apply (x : Vec Ideal S96x16384 .f32) (h : S96x16384.ShapeCasts S96x128x128) (p : Fin 96) (g l : Fin 128) :
    shapeCast S96x128x128 x h (ix3 p g l) = x (ix2 p (col g l)) := by
  refine shapeCast_apply x h (ix3 p g l) (ix2 p (col g l)) ?_
  rw [Shape.rowMajor_val_two, Shape.rowMajor_val_three]
  show p.val * 16384 + (128 * g.val + l.val) = (p.val * 128 + g.val) * 128 + l.val
  omega

/-- A 96-vector as a 96 × 1 column: entry `(p, 0)` is entry `p`. -/
theorem column_apply (v : FVec Ideal S96 .f32) (h : S96.ShapeCasts S96x1) (p : Fin 96) (z : Fin 1) :
    shapeCast S96x1 v h (ix2 p z) = v (ix1 p) := by
  refine shapeCast_apply v h (ix2 p z) (ix1 p) ?_
  rw [Shape.rowMajor_val_one, Shape.rowMajor_val_two]
  show p.val = p.val * 1 + z.val
  have := z.isLt
  omega

/-- The block of zeros a row block's first step stores. -/
theorem zeros_apply (j : S96x128.Idx) : k0_pay1 (F := Ideal) j = 0 := by
  unfold k0_pay1
  exact (congrFun (shapeCast_self _ _) j).trans Ideal.ofBits_zero_f32

theorem zeros'_apply (j : S96x128.Idx) : k0_pay2 (F := Ideal) j = 0 := by
  unfold k0_pay2
  exact (congrFun (shapeCast_self _ _) j).trans Ideal.ofBits_zero_f32

/-- One step of the first accumulator: lane total `(p, l)` gains the block's entries on that lane. -/
theorem step_apply (x : Vec Ideal S96x16384 .f32) (acc : Vec Ideal S96x128 .f32) (p : Fin 96) (l : Fin 128) :
    k0_pay3 x acc (ix2 p l) = acc (ix2 p l) + ∑ g : Fin 128, x (ix2 p (col g l)) := by
  unfold k0_pay3
  refine (congrFun (shapeCast_self _ _) (ix2 p l)).trans ?_
  refine congrArg (acc (ix2 p l) + ·) ?_
  refine (sum_groups _ _ _ _ p l).trans ?_
  refine Finset.sum_congr rfl fun g _ => ?_
  refine (regroup_apply _ _ p g l).trans ?_
  exact congrFun (shapeCast_self _ _) _

/-- One step of the second accumulator: the same. -/
theorem step'_apply (x : Vec Ideal S96x16384 .f32) (acc : Vec Ideal S96x128 .f32) (p : Fin 96) (l : Fin 128) :
    k0_pay4 x acc (ix2 p l) = acc (ix2 p l) + ∑ g : Fin 128, x (ix2 p (col g l)) := by
  unfold k0_pay4
  refine (congrFun (shapeCast_self _ _) (ix2 p l)).trans ?_
  refine congrArg (acc (ix2 p l) + ·) ?_
  refine (sum_groups _ _ _ _ p l).trans ?_
  refine Finset.sum_congr rfl fun g _ => ?_
  refine (regroup_apply _ _ p g l).trans ?_
  exact congrFun (shapeCast_self _ _) _

/-- The last step's output column: the two rows' lane totals summed, multiplied, and scaled by `2⁻³⁶`. -/
theorem finish_apply (a b : Vec Ideal S96x128 .f32) (p : Fin 96) (z : Fin 1) :
    k0_pay5 a b (ix2 p z)
      = (∑ l : Fin 128, a (ix2 p l)) * (∑ l : Fin 128, b (ix2 p l)) * Ideal.ofBits .f32 0x2D800000#32 := by
  unfold k0_pay5
  show (shapeCast S96x1 _ _ (ix2 p z) * shapeCast S96x1 _ _ (ix2 p z)) * Ideal.ofBits .f32 0x2D800000#32 = _
  refine congrArg (· * Ideal.ofBits .f32 0x2D800000#32) ?_
  refine congrArg₂ (· * ·) ?_ ?_
  · exact (column_apply _ _ p z).trans (sum_lanes_row a _ _ _ p)
  · exact (column_apply _ _ p z).trans (sum_lanes_row b _ _ _ p)

end Cert.KernelIdeal.Payload

end
-- ==== Proof.Sums.lean ====
/-
  Finite sums regrouped. A row of 262144 = 16 · 128 · 128 entries is summed by the kernel as 128 lane totals, each the
  sum over 16 column blocks of 128 strided entries, and by the reference in one sweep; in a commutative additive monoid
  the two groupings agree. The statements are over functions of a natural number and `Finset.range`, so that no index
  type is involved.
-/
import Idealize.ShloMosaic.PureOps.Ideal

namespace Cert.RowMeans

open Finset

variable {M : Type*} [AddCommMonoid M]

/-- A sum over `m · n` consecutive naturals is the sum over `m` runs of `n`. -/
theorem sum_range_mul (n : ℕ) (f : ℕ → M) :
    ∀ m : ℕ, ∑ k ∈ range (m * n), f k = ∑ a ∈ range m, ∑ b ∈ range n, f (n * a + b)
  | 0 => by simp
  | m + 1 => by
    rw [Nat.succ_mul, Finset.sum_range_add, sum_range_mul n f m, Finset.sum_range_succ, Nat.mul_comm m n]

/-- The same with the product named. -/
theorem sum_range_of_eq_mul {N m n : ℕ} (h : N = m * n) (f : ℕ → M) :
    ∑ k ∈ range N, f k = ∑ a ∈ range m, ∑ b ∈ range n, f (n * a + b) := by
  subst h; exact sum_range_mul n f m

/-- The kernel's grouping of a row: lane `l` collects, over the 16 column blocks `s` and the 128 groups `g` of a block,
    the entries at `16384 s + 128 g + l`; the 128 lane totals together are the whole row. -/
theorem sum_lanes (f : ℕ → M) :
    ∑ l ∈ range 128, ∑ s ∈ range 16, ∑ g ∈ range 128, f (16384 * s + (128 * g + l)) = ∑ k ∈ range 262144, f k := by
  rw [sum_range_of_eq_mul (show 262144 = 16 * 16384 from rfl) f, Finset.sum_comm]
  refine Finset.sum_congr rfl fun s _ => ?_
  rw [sum_range_of_eq_mul (show 16384 = 128 * 128 from rfl) (fun b => f (16384 * s + b)), Finset.sum_comm]

/-- A quantity indexed by the grid's points that restarts at the multiples of 16 with the first term of its run and, at
    every other point, adds that point's term to what the point before left, is at point `n` the sum of the terms of
    its run so far: the run is `n / 16`, the terms are numbered `0 … n % 16`. -/
theorem run_sum {N : ℕ} (f : (n : ℕ) → n < N → M) (T : ℕ → ℕ → M)
    (h0 : ∀ (n : ℕ) (h : n < N), n % 16 = 0 → f n h = T (n / 16) 0)
    (hs : ∀ (n : ℕ) (h : n + 1 < N), ¬(n + 1) % 16 = 0 →
      f (n + 1) h = f n (Nat.lt_of_succ_lt h) + T ((n + 1) / 16) ((n + 1) % 16)) :
    ∀ (n : ℕ) (h : n < N), f n h = ∑ s ∈ range (n % 16 + 1), T (n / 16) s
  | 0, h => by rw [h0 0 h rfl]; simp
  | n + 1, h => by
    by_cases hz : (n + 1) % 16 = 0
    · rw [h0 _ h hz, hz]; simp
    · have e1 : (n + 1) / 16 = n / 16 := by omega
      have e2 : (n + 1) % 16 = n % 16 + 1 := by omega
      rw [hs n h hz, run_sum f T h0 hs n (Nat.lt_of_succ_lt h), e1, e2, Finset.sum_range_succ _ (n % 16 + 1)]

end Cert.RowMeans
-- ==== Proof.Rows.lean ====
/-
  The common value of the two programs, stated over the arguments flattened to 192 rows of 262144 entries
  (row `12 b + s` is the block `(b, s, ·, ·, ·)` in row-major order): the sum over the rows of the product of the row's
  two totals scaled by `2⁻³⁶`, then divided by the literal 192.
  Arrays are read at natural-number coordinates (zero outside their extents) so that sums are over `Finset.range`.
-/
import proofs.«176838_j77214922048106_2_alg».proof.Proof.Sums
import Idealize.ShloMosaic.Lib.ValueIdx

noncomputable section

namespace Cert.RowMeans

open Finset Idealize.ShloMosaic Idealize.ShloMosaic.ValueIdx

/-- The flattened arguments' shape: 192 rows of 262144 entries. -/
abbrev Flat : Shape := ⟨2, ![192, 262144]⟩

/-- A flattened array at natural coordinates. -/
def rd (A : Flat.Idx → EReal) (r k : ℕ) : EReal :=
  if h : r < 192 ∧ k < 262144 then A (ix2 ⟨r, h.1⟩ ⟨k, h.2⟩) else 0

theorem rd_of_lt (A : Flat.Idx → EReal) {r k : ℕ} (hr : r < 192) (hk : k < 262144) :
    rd A r k = A (ix2 ⟨r, hr⟩ ⟨k, hk⟩) := dif_pos ⟨hr, hk⟩

/-- Row `r`'s total. -/
def rowSum (A : Flat.Idx → EReal) (r : ℕ) : EReal := ∑ k ∈ range 262144, rd A r k

/-- Row `r`'s contribution: the product of its two totals, scaled by the literal `2⁻³⁶`. -/
def rowTerm (A B : Flat.Idx → EReal) (r : ℕ) : EReal :=
  rowSum A r * rowSum B r * Ideal.ofBits .f32 0x2D800000#32

/-- The result: the rows' contributions summed from the literal zero and divided by the literal 192. -/
def result (A B : Flat.Idx → EReal) : EReal :=
  Ideal.div (Ideal.ofBits .f32 0x00000000#32 + ∑ r ∈ range 192, rowTerm A B r) (Ideal.ofBits .f32 0x43400000#32)

/-- What one lane of one accumulator gains at column block `s` of row block `q`: the 128 entries of row `96 q + p` that
    lie on lane `l` inside that column block. -/
def laneTerm (A : Flat.Idx → EReal) (p l q s : ℕ) : EReal :=
  ∑ g ∈ range 128, rd A (96 * q + p) (16384 * s + (128 * g + l))

/-- A row's 128 lane totals over its 16 column blocks add up to the row's total. -/
theorem sum_laneTerm (A : Flat.Idx → EReal) (p q : ℕ) :
    ∑ l ∈ range 128, ∑ s ∈ range 16, laneTerm A p l q s = rowSum A (96 * q + p) :=
  sum_lanes (fun k => rd A (96 * q + p) k)

end Cert.RowMeans

end
-- ==== Proof.Acc.lean ====
/-
  The accumulators in closed form, over the extended reals. Grid point `n` is column block `n % 16` of row block
  `n / 16`; its input blocks are rows `96 (n / 16) …` and columns `16384 (n % 16) …` of the two flattened arguments. After
  point `n`, lane `(p, l)` of an accumulator holds the lane's entries of the column blocks `0 … n % 16`; at the last point
  of a row block the output column holds, at row `p`, the contribution of row `96 (n / 16) + p`.
-/
import proofs.«176838_j77214922048106_2_alg».proof.Proof.Steps
import proofs.«176838_j77214922048106_2_alg».proof.Proof.Payload
import proofs.«176838_j77214922048106_2_alg».proof.Proof.Rows

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Steps Cert.KernelIdeal.Payload Cert.RowMeans Finset

variable (m : (ℓ : Loc nD τ sig) → Buf (Elt Ideal) ℓ) (c : Dev nD)

/-- The windows' block indices at a point, decided over the grid: the inputs' blocks are (row block, column block), the
    output's block is the row block. -/
theorem idx_facts : ∀ t : Fin cfg0.N, win0_0.index t (0 : Fin 2) = t.val / 16 ∧ win0_0.index t (1 : Fin 2) = t.val % 16
    ∧ win0_1.index t (0 : Fin 2) = t.val / 16 ∧ win0_1.index t (1 : Fin 2) = t.val % 16
    ∧ win0_2.index t (0 : Fin 2) = t.val / 16 ∧ win0_2.index t (1 : Fin 2) = 0 :=
  (by decide +kernel : ∀ t : Fin grid0.N, _)

/-- The first input's block at a point, read off any contents of its array. -/
theorem blk0_read (A : Buf (Elt Ideal) ((c : Thread nD τ).loc (Pipeline.arrRef spec0 0))) (t : Fin cfg0.N)
    (p : Fin 96) (k : Fin 16384) :
    ((cfg0.win 0).blk t).view.read (Elt Ideal) A (ix2 p k)
      = rd A (96 * (t.val / 16) + p.val) (16384 * (t.val % 16) + k.val) := by
  have hN : t.val < 32 := lt_of_lt_of_eq t.isLt N_0
  have hp := p.isLt
  have hk := k.isLt
  rw [rd_of_lt A (by omega) (by omega), View.read_apply]
  refine congrArg A ?_
  obtain ⟨e0, e1, -⟩ := idx_facts t
  funext a
  apply Fin.ext
  match a with
  | ⟨0, _⟩ => show win0_0.index t (0 : Fin 2) * 96 + 1 * p.val = 96 * (t.val / 16) + p.val; omega
  | ⟨1, _⟩ => show win0_0.index t (1 : Fin 2) * 16384 + 1 * k.val = 16384 * (t.val % 16) + k.val; omega

/-- The second input's block at a point. -/
theorem blk1_read (A : Buf (Elt Ideal) ((c : Thread nD τ).loc (Pipeline.arrRef spec0 1))) (t : Fin cfg0.N)
    (p : Fin 96) (k : Fin 16384) :
    ((cfg0.win 1).blk t).view.read (Elt Ideal) A (ix2 p k)
      = rd A (96 * (t.val / 16) + p.val) (16384 * (t.val % 16) + k.val) := by
  have hN : t.val < 32 := lt_of_lt_of_eq t.isLt N_0
  have hp := p.isLt
  have hk := k.isLt
  rw [rd_of_lt A (by omega) (by omega), View.read_apply]
  refine congrArg A ?_
  obtain ⟨-, -, e0, e1, -⟩ := idx_facts t
  funext a
  apply Fin.ext
  match a with
  | ⟨0, _⟩ => show win0_1.index t (0 : Fin 2) * 96 + 1 * p.val = 96 * (t.val / 16) + p.val; omega
  | ⟨1, _⟩ => show win0_1.index t (1 : Fin 2) * 16384 + 1 * k.val = 16384 * (t.val % 16) + k.val; omega

theorem iblk0_apply (t : Fin cfg0.N) (p : Fin 96) (k : Fin 16384) :
    (iblk m c 0 t : Vec Ideal S96x16384 .f32) (ix2 p k)
      = rd (V m c main_v0) (96 * (t.val / 16) + p.val) (16384 * (t.val % 16) + k.val) :=
  blk0_read c (V m c (Pipeline.arrRef spec0 0)) t p k

theorem iblk1_apply (t : Fin cfg0.N) (p : Fin 96) (k : Fin 16384) :
    (iblk m c 1 t : Vec Ideal S96x16384 .f32) (ix2 p k)
      = rd (V m c main_v1) (96 * (t.val / 16) + p.val) (16384 * (t.val % 16) + k.val) :=
  blk1_read c (V m c (Pipeline.arrRef spec0 1)) t p k

/-- A block's entries on lane `l` of its row `p`, summed: the lane's term of that point. -/
theorem blk_laneTerm (x : Vec Ideal S96x16384 .f32) (A : Flat.Idx → EReal) (q s : ℕ)
    (hx : ∀ (p : Fin 96) (k : Fin 16384), x (ix2 p k) = rd A (96 * q + p.val) (16384 * s + k.val)) (p : Fin 96) (l : Fin 128) :
    ∑ g : Fin 128, x (ix2 p (col g l)) = laneTerm A p.val l.val q s := by
  unfold laneTerm
  rw [← Fin.sum_univ_eq_sum_range (fun g => rd A (96 * q + p.val) (16384 * s + (128 * g + l.val))) 128]
  exact Finset.sum_congr rfl fun g _ => hx p (col g l)

/-- The first accumulator after point `n`: lane `(p, l)` holds its terms of the column blocks `0 … n % 16`. -/
theorem acc0_eq (p : Fin 96) (l : Fin 128) : ∀ (n : ℕ) (h : n < cfg0.N),
    (outsAt0 m c n h).2.1 (ix2 p l) = ∑ s ∈ range (n % 16 + 1), laneTerm (V m c main_v0) p.val l.val (n / 16) s := by
  refine run_sum (fun n h => (outsAt0 m c n h).2.1 (ix2 p l)) (laneTerm (V m c main_v0) p.val l.val) ?_ ?_
  · intro n h hz
    refine (congrFun (acc0_first m c ⟨n, h⟩ hz) (ix2 p l)).trans ?_
    refine (step_apply (iblk m c 0 ⟨n, h⟩) (k0_pay1 (F := Ideal)) p l).trans ?_
    rw [zeros_apply, zero_add]
    refine (blk_laneTerm (iblk m c 0 ⟨n, h⟩) (V m c main_v0) (n / 16) (n % 16) (fun p k => iblk0_apply m c ⟨n, h⟩ p k) p l).trans ?_
    rw [hz]
  · intro n h hz
    refine (congrFun (acc0_next m c ⟨n + 1, h⟩ hz) (ix2 p l)).trans ?_
    refine (step_apply (iblk m c 0 ⟨n + 1, h⟩) _ p l).trans ?_
    exact congrArg₂ (· + ·) rfl
      (blk_laneTerm (iblk m c 0 ⟨n + 1, h⟩) (V m c main_v0) ((n + 1) / 16) ((n + 1) % 16) (fun p k => iblk0_apply m c ⟨n + 1, h⟩ p k) p l)

/-- The second accumulator after point `n`. -/
theorem acc1_eq (p : Fin 96) (l : Fin 128) : ∀ (n : ℕ) (h : n < cfg0.N),
    (outsAt0 m c n h).2.2 (ix2 p l) = ∑ s ∈ range (n % 16 + 1), laneTerm (V m c main_v1) p.val l.val (n / 16) s := by
  refine run_sum (fun n h => (outsAt0 m c n h).2.2 (ix2 p l)) (laneTerm (V m c main_v1) p.val l.val) ?_ ?_
  · intro n h hz
    refine (congrFun (acc1_first m c ⟨n, h⟩ hz) (ix2 p l)).trans ?_
    refine (step'_apply (iblk m c 1 ⟨n, h⟩) (k0_pay2 (F := Ideal)) p l).trans ?_
    rw [zeros'_apply, zero_add]
    refine (blk_laneTerm (iblk m c 1 ⟨n, h⟩) (V m c main_v1) (n / 16) (n % 16) (fun p k => iblk1_apply m c ⟨n, h⟩ p k) p l).trans ?_
    rw [hz]
  · intro n h hz
    refine (congrFun (acc1_next m c ⟨n + 1, h⟩ hz) (ix2 p l)).trans ?_
    refine (step'_apply (iblk m c 1 ⟨n + 1, h⟩) _ p l).trans ?_
    exact congrArg₂ (· + ·) rfl
      (blk_laneTerm (iblk m c 1 ⟨n + 1, h⟩) (V m c main_v1) ((n + 1) / 16) ((n + 1) % 16) (fun p k => iblk1_apply m c ⟨n + 1, h⟩ p k) p l)

/-- An accumulator's 128 lanes of row `p` at the last point of row block `q`, summed: the total of row `96 q + p`. -/
theorem lanes_total (acc : Vec Ideal S96x128 .f32) (A : Flat.Idx → EReal) (q : ℕ) (p : Fin 96)
    (hacc : ∀ l : Fin 128, acc (ix2 p l) = ∑ s ∈ range 16, laneTerm A p.val l.val q s) :
    ∑ l : Fin 128, acc (ix2 p l) = rowSum A (96 * q + p.val) := by
  rw [← sum_laneTerm A p.val q, ← Fin.sum_univ_eq_sum_range (fun l => ∑ s ∈ range 16, laneTerm A p.val l q s) 128]
  exact Finset.sum_congr rfl fun l _ => hacc l

/-- The output column at the last point of a row block: row `p` holds the contribution of row `96 (t / 16) + p`. -/
theorem out_eq (t : Fin cfg0.N) (h15 : t.val % 16 = 15) (p : Fin 96) (z : Fin 1) :
    (outsAt0 m c t.val t.isLt).1 (ix2 p z) = rowTerm (V m c main_v0) (V m c main_v1) (96 * (t.val / 16) + p.val) := by
  refine (congrFun (out_last m c t h15) (ix2 p z)).trans ?_
  refine (finish_apply (outsAt0 m c t.val t.isLt).2.1 (outsAt0 m c t.val t.isLt).2.2 p z).trans ?_
  unfold rowTerm
  refine congrArg (· * Ideal.ofBits .f32 0x2D800000#32) ?_
  refine congrArg₂ (· * ·) ?_ ?_
  · exact lanes_total _ (V m c main_v0) (t.val / 16) p fun l => by rw [acc0_eq m c p l t.val t.isLt, h15]
  · exact lanes_total _ (V m c main_v1) (t.val / 16) p fun l => by rw [acc1_eq m c p l t.val t.isLt, h15]

end Cert.KernelIdeal.Acc

end
-- ==== Proof.KernelValue.lean ====
/-
  The kernel program's result. The two reshapes before the launch flatten the arguments to 192 × 262144; the launch
  leaves in the 192 × 1 output array, at row `r`, that row's contribution (each row block's column is written back once,
  at the last column block, and the two row blocks tile the array); the two host operations after the launch sum the
  column from the literal zero and divide by the literal 192: the common value of the flattened arguments.
-/
import proofs.«176838_j77214922048106_2_alg».proof.Proof.Acc
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RowValue

open Cert.KernelIdeal Cert.KernelIdeal.Gen Cert.KernelIdeal.Acc Cert.RowMeans Finset

variable (m : (ℓ : Loc nD τ sig) → Buf (Elt Ideal) ℓ) (ρ : Dev nD → PrngReg)

/-- The first flattened argument, as the launch finds it. -/
theorem V_main_v0 (c : Dev nD) : (V m c main_v0 : S192x262144.Idx → EReal)
    = shapeCast S192x262144 (m ((c : Thread nD τ).loc main_arg0)) shapeCasts_S16x12x64x64x64_S192x262144 := by
  show StableHlo.after hostOps0 (fun b => m (c, b)) (Proc.devRef .tc main_v0) = _
  after_results
  rfl

/-- The second flattened argument. -/
theorem V_main_v1 (c : Dev nD) : (V m c main_v1 : S192x262144.Idx → EReal)
    = shapeCast S192x262144 (m ((c : Thread nD τ).loc main_arg1)) shapeCasts_S16x12x64x64x64_S192x262144 := by
  show StableHlo.after hostOps0 (fun b => m (c, b)) (Proc.devRef .tc main_v1) = _
  after_results
  rfl

/-- The output array after the launch: row `r` holds row `r`'s contribution. -/
def column (c : Dev nD) : Buf (Elt Ideal) ((c : Thread nD τ).loc main_v2) :=
  fun i => rowTerm (V m c main_v0) (V m c main_v1) (i 0).val

/-- What the last point of a row block leaves in the output's staging buffer is that row block of the column. -/
theorem staged_eq (c : Dev nD) (t : Fin cfg0.N) (h15 : t.val % 16 = 15) (y : S96x1.Idx) :
    (outsAt0 m c t.val t.isLt).1 y = column m c (((cfg0.win 2).blk t).view.emb y) := by
  obtain ⟨p, z, rfl⟩ : ∃ (p : Fin 96) (z : Fin 1), y = ix2 p z := ⟨y 0, y 1, eq_ix2 y⟩
  rw [out_eq m c t h15 p z]
  unfold column
  refine congrArg (rowTerm (V m c main_v0) (V m c main_v1)) ?_
  obtain ⟨-, -, -, -, e0, -⟩ := idx_facts t
  show 96 * (t.val / 16) + p.val = win0_2.index t (0 : Fin 2) * 96 + 1 * p.val
  omega

/-- What a point that writes the output back writes is its block of the column. -/
theorem flushed_eq (c : Dev nD) (t : Fin cfg0.N) (hf : (cfg0.win 2).flush t = true) :
    (dats m 0 c).flushed 2 t = ((cfg0.win 2).blk t).view.read (Elt Ideal) (column m c) := by
  have h15 : t.val % 16 = 15 := (flush0_2 t).mp hf
  show (cfg0.win 2).cut (grid0.coords t) ((dats m 0 c).after 2 t) = _
  rw [after0_2]
  funext y
  rw [View.read_apply]
  exact staged_eq m c t h15 y

/-- Every row of the output array is in the block of its row block's last point. -/
theorem covered (c : Dev nD) (i : S192x1.Idx) :
    ∃ t : Fin cfg0.N, (cfg0.win 2).flush t = true ∧ i ∈ ((cfg0.win 2).blk t).view.set := by
  have hi0 : (i 0).val < 192 := (i 0).isLt
  have hi1 : (i 1).val < 1 := (i 1).isLt
  have ht : 16 * ((i 0).val / 96) + 15 < cfg0.N := lt_of_lt_of_eq (by omega : _ < 32) N_0.symm
  refine ⟨⟨16 * ((i 0).val / 96) + 15, ht⟩, (flush0_2 _).mpr (by show (16 * ((i 0).val / 96) + 15) % 16 = 15; omega), ?_⟩
  show i ∈ ((View.whole main_v2).slice (win0_2.rect ⟨16 * ((i 0).val / 96) + 15, ht⟩)).set
  rw [View.set_slice_whole, Rect.mem_set_unit]
  obtain ⟨-, -, -, -, e0, e1⟩ := idx_facts ⟨16 * ((i 0).val / 96) + 15, ht⟩
  have e0' : win0_2.index ⟨16 * ((i 0).val / 96) + 15, ht⟩ (0 : Fin 2) = (16 * ((i 0).val / 96) + 15) / 16 := e0
  intro a
  match a with
  | ⟨0, _⟩ =>
    show win0_2.index ⟨16 * ((i 0).val / 96) + 15, ht⟩ (0 : Fin 2) * 96 ≤ (i 0).val
      ∧ (i 0).val < win0_2.index ⟨16 * ((i 0).val / 96) + 15, ht⟩ (0 : Fin 2) * 96 + 96
    omega
  | ⟨1, _⟩ =>
    show win0_2.index ⟨16 * ((i 0).val / 96) + 15, ht⟩ (1 : Fin 2) * 1 ≤ (i 1).val
      ∧ (i 1).val < win0_2.index ⟨16 * ((i 0).val / 96) + 15, ht⟩ (1 : Fin 2) * 1 + 1
    omega

/-- The output array after the launch is the column. -/
theorem final (c : Dev nD) : (dats m 0 c).arrAt 2 cfg0.N = column m c :=
  (dats m 0 c).arrAt_eq_of_cover 2 (column m c) (flushed_eq m c) (covered c)

/-- The column summed from the literal zero and divided by the literal 192 is the common value. -/
theorem tail_apply (A B : Flat.Idx → EReal) (col : S192x1.Idx → EReal) (hcol : ∀ i, col i = rowTerm A B (i 0).val)
    (h : S192x1.ReducesTo [0, 1] S_) (hu : 0 < S_.numel) (i : S_.Idx) :
    Host.divf (F := Ideal) (Host.reduceAdd (F := Ideal) (φ := .f32) col (constant (F := Ideal) S_ .f32 0x00000000#32) h hu)
      (constant (F := Ideal) S_ .f32 0x43400000#32) i = result A B := by
  show Ideal.div (Ideal.hostReduceAdd h col (Ideal.ofBits .f32 0x00000000#32) i) (Ideal.ofBits .f32 0x43400000#32) = _
  rw [Ideal.hostReduceAdd_total h (fun b => b.elim0) col _ i]
  unfold result
  refine congrArg (fun x => Ideal.div (Ideal.ofBits .f32 0x00000000#32 + x) (Ideal.ofBits .f32 0x43400000#32)) ?_
  rw [sum_idx2, ← Fin.sum_univ_eq_sum_range (rowTerm A B) 192]
  refine Finset.sum_congr rfl fun a _ => ?_
  rw [Fin.sum_univ_one, hcol]

/-- The program's result buffer after the run. -/
theorem tail_eq (c : Dev nD) :
    Pipeline.afterTail₀ cfgs (dats m) 0 (V0 m) [hostOps1] c main_v4
      = fun _ => result (shapeCast S192x262144 (m ((c : Thread nD τ).loc main_arg0)) shapeCasts_S16x12x64x64x64_S192x262144)
          (shapeCast S192x262144 (m ((c : Thread nD τ).loc main_arg1)) shapeCasts_S16x12x64x64x64_S192x262144) := by
  unfold Pipeline.afterTail₀
  show StableHlo.after hostOps1 _ (Proc.devRef .tc main_v4) = _
  after_results
  rw [(Pipeline.withArrays_arr spec0 launch0.win.arr_inj c _ _ 2).trans (final m c)]
  funext i
  rw [← V_main_v0 m c, ← V_main_v1 m c]
  exact tail_apply (V m c main_v0) (V m c main_v1) (column m c) (fun _ => rfl) _ _ i

/-- The run, read: the result buffer at the common value of the flattened arguments, the arguments unchanged. -/
theorem run : θ_run defs (onTc (τ := τ) (main (F := Ideal))) ⟨m, fun _ => 0, ρ⟩ fun r => ∀ c : Dev nD,
      r.2.mem ((c.tc : Thread nD τ).loc main_v4)
        = (fun _ => result (shapeCast S192x262144 (m ((c : Thread nD τ).loc main_arg0)) shapeCasts_S16x12x64x64x64_S192x262144)
            (shapeCast S192x262144 (m ((c : Thread nD τ).loc main_arg1)) shapeCasts_S16x12x64x64x64_S192x262144))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.RowValue

end
-- ==== Proof.Scalars.lean ====
/-
  The float literals of the two programs as the reals they denote, and the one scalar law between the two sides: a row's
  two means multiplied, `(a / n) · (b / n)`, is the product of the two row sums scaled once by `1/n²`, for `n = 262144`
  — on every extended real, because division by a nonzero real is multiplication by its reciprocal and multiplication
  of extended reals is commutative and associative.
-/
import Idealize.ShloMosaic.PureOps.Ideal

noncomputable section

namespace Cert.RowMeans

open Idealize.ShloMosaic

/-- The reference's divisor, the row length `262144 = 2¹⁸`. -/
theorem ofBits_rowLen : Ideal.ofBits .f32 0x48800000#32 = ((262144 : ℝ) : EReal) := by
  simp [Ideal.ofBits, Ideal.ieee, -EReal.coe_mul]; norm_num

/-- The kernel's scale `2⁻³⁶`, the square of the reciprocal row length. -/
theorem ofBits_invSq : Ideal.ofBits .f32 0x2D800000#32 = ((1 / 262144 * (1 / 262144) : ℝ) : EReal) := by
  simp [Ideal.ofBits, Ideal.ieee, -EReal.coe_mul]; norm_num

/-- The product of two means is the product of the two sums, scaled by the squared reciprocal of the length. -/
theorem mean_mul_mean (a b : EReal) :
    Ideal.div a (Ideal.ofBits .f32 0x48800000#32) * Ideal.div b (Ideal.ofBits .f32 0x48800000#32)
      = a * b * Ideal.ofBits .f32 0x2D800000#32 := by
  rw [ofBits_rowLen, ofBits_invSq, Ideal.div_coe (by norm_num) a, Ideal.div_coe (by norm_num) b, EReal.coe_mul]
  exact mul_mul_mul_comm _ _ _ _

end Cert.RowMeans

end
-- ==== Proof.RefValue.lean ====
/-
  The reference's result is the common value. For each `(b, s)` the reference sums the block `(b, s, ·, ·, ·)` of an
  argument and divides by 262144; the block is row `12 b + s` of the argument flattened in row-major order, so the sum is
  that row's total. The product of the two means is the row's contribution (the scalar law), the `(b, s)` are the rows
  `0 … 191` in order, and the final division by the literal 192 is the same on both sides.
-/
import proofs.«176838_j77214922048106_2_alg».proof.Proof.Gen.ReferenceIdeal.Read
import proofs.«176838_j77214922048106_2_alg».proof.Proof.Rows
import proofs.«176838_j77214922048106_2_alg».proof.Proof.Scalars
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read Cert.RowMeans Finset

/-- An index of the flattened array lies in row `12 b + s` exactly when the five-axis index at the same row-major
    position has leading coordinates `(b, s)`. -/
theorem drop_reshape_iff (h' : S16x12x64x64x64.ReducesTo [2, 3, 4] S16x12) (hc : S16x12x64x64x64.ShapeCasts Flat)
    (j : Flat.Idx) (b : Fin 16) (s : Fin 12) :
    h'.drop (Shape.reshapeEquiv hc j) = ix2 b s ↔ (j 0).val = 12 * b.val + s.val := by
  have hrm := Shape.rowMajor_reshapeEquiv hc j
  rw [Shape.rowMajor_val_five, Shape.rowMajor_val_two] at hrm
  generalize Shape.reshapeEquiv hc j = i at hrm ⊢
  have hrm' : ((((i 0).val * 12 + (i 1).val) * 64 + (i 2).val) * 64 + (i 3).val) * 64 + (i 4).val
      = (j 0).val * 262144 + (j 1).val := hrm
  have d0 : (h'.drop i 0).val = (i 0).val := h'.drop_apply_val_of_eq i 0 0
  have d1 : (h'.drop i 1).val = (i 1).val := h'.drop_apply_val_of_eq i 1 1
  have b1 : (i 1).val < 12 := (i 1).isLt
  have b2 : (i 2).val < 64 := (i 2).isLt
  have b3 : (i 3).val < 64 := (i 3).isLt
  have b4 : (i 4).val < 64 := (i 4).isLt
  have c1 : (j 1).val < 262144 := (j 1).isLt
  have hs := s.isLt
  constructor
  · intro e
    have e0 : (h'.drop i 0).val = b.val := congrArg (fun x : S16x12.Idx => (x 0).val) e
    have e1 : (h'.drop i 1).val = s.val := congrArg (fun x : S16x12.Idx => (x 1).val) e
    omega
  · intro e
    funext a
    apply Fin.ext
    match a with
    | ⟨0, _⟩ => show (h'.drop i 0).val = b.val; omega
    | ⟨1, _⟩ => show (h'.drop i 1).val = s.val; omega

/-- The block `(b, s, ·, ·, ·)` summed is row `12 b + s` of the flattened array summed. -/
theorem fiber_sum (h' : S16x12x64x64x64.ReducesTo [2, 3, 4] S16x12) (hc : S16x12x64x64x64.ShapeCasts Flat)
    (X : S16x12x64x64x64.Idx → EReal) (b : Fin 16) (s : Fin 12) :
    ∑ i ∈ univ.filter (fun i => h'.drop i = ix2 b s), X i = rowSum (shapeCast Flat X hc) (12 * b.val + s.val) := by
  have hr : 12 * b.val + s.val < 192 := by have := b.isLt; have := s.isLt; omega
  rw [Finset.sum_filter, ← Equiv.sum_comp (Shape.reshapeEquiv hc)]
  rw [Finset.sum_congr rfl fun j _ => if_congr (drop_reshape_iff h' hc j b s) rfl rfl]
  rw [sum_idx2, Finset.sum_eq_single (⟨12 * b.val + s.val, hr⟩ : Fin 192)]
  · unfold rowSum
    rw [← Fin.sum_univ_eq_sum_range (fun k => rd (shapeCast Flat X hc) (12 * b.val + s.val) k) 262144]
    refine Finset.sum_congr rfl fun k _ => ?_
    rw [if_pos rfl, rd_of_lt _ hr k.isLt]
    rfl
  · intro a _ hne
    refine Finset.sum_eq_zero fun k _ => if_neg fun h => hne (Fin.ext h)
  · intro h
    exact absurd (Finset.mem_univ _) h

/-- The rows `0 … 191` are the pairs `(b, s)` in order. -/
theorem sum_pairs (f : ℕ → EReal) :
    ∑ j : S16x12.Idx, f (12 * (j 0).val + (j 1).val) = ∑ r ∈ range 192, f r := by
  rw [sum_range_of_eq_mul (show 192 = 16 * 12 from rfl) f, sum_idx2,
    ← Fin.sum_univ_eq_sum_range (fun a => ∑ b ∈ range 12, f (12 * a + b)) 16]
  refine Finset.sum_congr rfl fun a _ => ?_
  rw [← Fin.sum_univ_eq_sum_range (fun b => f (12 * a.val + b)) 12]

/-- The reference's result is the common value of the flattened arguments. -/
theorem result_eq (hc : S16x12x64x64x64.ShapeCasts Flat) (X Y : (⟨S16x12x64x64x64, .f32⟩ : BufTy).Contents (Elt Ideal))
    (i : S_.Idx) :
    val_main_v8 (F := Ideal) X Y i = result (shapeCast Flat X hc) (shapeCast Flat Y hc) := by
  have hpair : ∀ j : S16x12.Idx, val_main_v6 (F := Ideal) X Y j
      = rowTerm (shapeCast Flat X hc) (shapeCast Flat Y hc) (12 * (j 0).val + (j 1).val) := by
    intro j
    obtain ⟨b, s, rfl⟩ : ∃ (b : Fin 16) (s : Fin 12), j = ix2 b s := ⟨j 0, j 1, eq_ix2 j⟩
    rw [val_main_v6_apply, val_main_v2_apply, val_main_v5_apply, val_main_v1_apply, val_main_v4_apply,
      val_main_cst_0_apply, val_main_cst_2_apply]
    unfold val_main_v0 val_main_v3
    simp only [Host.reduceAdd, Ideal.hostReduceAdd_def, Ideal.hostReduceAdd, Ideal.mulf_def, Ideal.hostDivf_def,
      Ideal.ofBits_def, val_main_cst_apply, val_main_cst_1_apply, fiber_sum _ hc]
    rw [mean_mul_mean, Ideal.ofBits_zero_f32, zero_add, zero_add]
    rfl
  rw [val_main_v8_apply, val_main_v7_apply, val_main_cst_3_apply, val_main_cst_4_apply]
  unfold result
  simp only [Ideal.hostDivf_def, Ideal.ofBits_def]
  rw [Finset.sum_congr rfl fun j _ => hpair j, sum_pairs (rowTerm (shapeCast Flat X hc) (shapeCast Flat Y hc))]

end Cert.ReferenceIdeal.RefValue

end
-- ==== Proof.lean ====
/-
  The kernel computes, for each of the 192 rows `(b, s)` of the two arguments flattened to 192 × 262144, the product of the
  two row totals scaled by `2⁻³⁶`, and its host code averages the 192 products; the reference averages the 192 products of
  the two row MEANS. Over the extended reals the two are one value: a row's total does not depend on how its 262144
  entries are grouped (16 column blocks × 128 strided groups × 128 lanes in the kernel, one sweep in the reference), and
  `(a / n) · (b / n) = a · b · (1/n²)` for `n = 262144 = 2¹⁸`, the kernel's literal being exactly `2⁻³⁶`. No finiteness of
  the inputs is used: addition and multiplication of extended reals are commutative and associative, and division by a
  nonzero real is multiplication by its reciprocal at the infinities too.

  Modules: Sums (regrouping finite sums), Scalars (the literals and the scalar law), Rows (the common value),
  Pieces / Steps (what each control case of the body leaves, point to point), Payload (the body's arithmetic at an
  entry), Acc (the accumulators in closed form), KernelValue (the output array, the host tail, the run),
  RefValue (the reference's operations read at an entry).
-/
import proofs.«176838_j77214922048106_2_alg».proof.Defs
import proofs.«176838_j77214922048106_2_alg».proof.Proof.Gen.Kernel
import proofs.«176838_j77214922048106_2_alg».proof.Proof.Gen.Kernel.Skeleton
import proofs.«176838_j77214922048106_2_alg».proof.Proof.Gen.Kernel.Launch
import proofs.«176838_j77214922048106_2_alg».proof.Proof.Gen.Kernel.Points
import proofs.«176838_j77214922048106_2_alg».proof.Proof.Gen.Kernel.Frame
import proofs.«176838_j77214922048106_2_alg».proof.Proof.Gen.KernelIdeal
import proofs.«176838_j77214922048106_2_alg».proof.Proof.Gen.KernelIdeal.Skeleton
import proofs.«176838_j77214922048106_2_alg».proof.Proof.Gen.KernelIdeal.Launch
import proofs.«176838_j77214922048106_2_alg».proof.Proof.Gen.KernelIdeal.Points
import proofs.«176838_j77214922048106_2_alg».proof.Proof.Gen.KernelIdeal.Frame
import proofs.«176838_j77214922048106_2_alg».proof.Proof.Gen.ReferenceIdeal
import proofs.«176838_j77214922048106_2_alg».proof.Proof.Gen.ReferenceIdeal.Run
import proofs.«176838_j77214922048106_2_alg».proof.Proof.Gen.ReferenceIdeal.Read
import proofs.«176838_j77214922048106_2_alg».proof.Proof.Gen.Pre_finite_inputs
import proofs.«176838_j77214922048106_2_alg».proof.Proof.KernelValue
import proofs.«176838_j77214922048106_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, with its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the common value of the flattened arguments, which agree. -/
theorem algebraic : Cert.algebraic_KernelIdeal_ReferenceIdeal := by
  intro m ρ m' ρ' _ hagree
  refine ⟨_, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2]
  funext i
  exact Cert.ReferenceIdeal.RefValue.result_eq _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
